-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128 : Shape := ⟨1, ![128]⟩
abbrev S128x128 : Shape := ⟨2, ![128, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S524288x128 .f32) (main_arg1 : FVec F S128 .f32) (main_arg2 : FVec F S128 .f32) (main_arg3 : FVec F S128x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S524288x128 : Shape := ⟨2, ![524288, 128]⟩
abbrev S128 : Shape := ⟨1, ![128]⟩
abbrev S128x128 : Shape := ⟨2, ![128, 128]⟩
abbrev S8192x128 : Shape := ⟨2, ![8192, 128]⟩
abbrev S8192 : Shape := ⟨1, ![8192]⟩
abbrev S8192x1 : Shape := ⟨2, ![8192, 1]⟩
abbrev S1x128 : Shape := ⟨2, ![1, 128]⟩

abbrev nBuf : Space → Nat
  | .hbm => 6
  | .vmem => 7
  | .smem => 0
  | _ => 0

abbrev bufTy : (tb : Table) → Fin (tcTables nBuf tb) → BufTy
  | .hbm, ⟨0, _⟩ => ⟨S524288x128, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S128x128, .bf16⟩
  | .hbm, ⟨5, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S128, .f32⟩
  | .local _ .vmem, ⟨3, _⟩ => ⟨S128, .f32⟩
  | .local _ .vmem, ⟨4, _⟩ => ⟨S128x128, .bf16⟩
  | .local _ .vmem, ⟨5, _⟩ => ⟨S8192x128, .f32⟩
  | .local _ .vmem, ⟨6, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S524288x128.size a
  hwx0_4 : ∀ i : grid0.Coords, EltTy.bits .f32 = 32 ∨ (Rect.block (s := S524288x128) S8192x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x128 : Shape := ⟨2, ![524288, 128]⟩
abbrev S128 : Shape := ⟨1, ![128]⟩
abbrev S128x128 : Shape := ⟨2, ![128, 128]⟩
abbrev S_ : Shape := ⟨0, ![]⟩
abbrev S524288 : Shape := ⟨1, ![524288]⟩
abbrev S524288x1 : Shape := ⟨2, ![524288, 1]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S_, .f32⟩
  | .hbm, ⟨5, _⟩ => ⟨S524288, .f32⟩
  | .hbm, ⟨6, _⟩ => ⟨S524288x1, .f32⟩
  | .hbm, ⟨7, _⟩ => ⟨S_, .f32⟩
  | .hbm, ⟨8, _⟩ => ⟨S524288x1, .f32⟩
  | .hbm, ⟨9, _⟩ => ⟨S524288x1, .f32⟩
  | .hbm, ⟨10, _⟩ => ⟨S524288x128, .f32⟩
  | .hbm, ⟨11, _⟩ => ⟨S524288x128, .f32⟩
  | .hbm, ⟨12, _⟩ => ⟨S524288x128, .f32⟩
  | .hbm, ⟨13, _⟩ => ⟨S_, .f32⟩
  | .hbm, ⟨14, _⟩ => ⟨S524288, .f32⟩
  | .hbm, ⟨15, _⟩ => ⟨S524288x1, .f32⟩
  | .hbm, ⟨16, _⟩ => ⟨S_, .f32⟩
  | .hbm, ⟨17, _⟩ => ⟨S524288x1, .f32⟩
  | .hbm, ⟨18, _⟩ => ⟨S524288x1, .f32⟩
  | .hbm, ⟨19, _⟩ => ⟨S524288x128, .f32⟩
  | .hbm, ⟨20, _⟩ => ⟨S524288x128, .f32⟩
  | .hbm, ⟨21, _⟩ => ⟨S_, .f32⟩
  | .hbm, ⟨22, _⟩ => ⟨S524288x1, .f32⟩
  | .hbm, ⟨23, _⟩ => ⟨S524288x1, .f32⟩
  | .hbm, ⟨24, _⟩ => ⟨S524288x1, .f32⟩
  | .hbm, ⟨25, _⟩ => ⟨S524288x128, .f32⟩
  | .hbm, ⟨26, _⟩ => ⟨S524288x128, .f32⟩
  | .hbm, ⟨27, _⟩ => ⟨S1x128, .f32⟩
  | .hbm, ⟨28, _⟩ => ⟨S524288x128, .f32⟩
  | .hbm, ⟨29, _⟩ => ⟨S524288x128, .f32⟩
  | .hbm, ⟨30, _⟩ => ⟨S1x128, .f32⟩
  | .hbm, ⟨31, _⟩ => ⟨S524288x128, .f32⟩
  | .hbm, ⟨32, _⟩ => ⟨S524288x128, .f32⟩
  | .hbm, ⟨33, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S524288x128_S524288_d1 : S524288x128.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«128791_j84078279786859_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKernelOps.lean ====
/-
  An affine layer as the kernel spells it, read at an index at the ideal (extended real) values and generic in the extents.

  * matmulNT_bias_apply — an [M, K] array against an [N, K] array contracted over their second axes into the zero
                          accumulator, plus an [N] bias viewed as the one row [1, N] and broadcast over the M rows:
                          entry (e, o) is the sum over r of x (e, r) * y (o, r), plus b o;
  * rowBroadcast_apply  — an [N] array viewed as [1, N] and broadcast to [M, N] reads, at (e, o), the array at o.
-/
import Idealize.ShloMosaic.PureOps.Ideal.Laws
import Idealize.ShloMosaic.Lib.Pipeline.Value
import Idealize.ShloMosaic.Lib.ValueIdx
import Idealize.ShloMosaic.Lib.ValueLayout
import proofs.«128791_j84078279786859_2_alg».proof.Proof.LibRowReduceProducts

noncomputable section

open scoped BigOperators

namespace Cert.LibKernelOps

open Idealize.ShloMosaic Idealize.ShloMosaic.ValueIdx

/-- An [N] array viewed as the one row [1, N] and broadcast over M rows reads, at (e, o), the array at o. -/
theorem rowBroadcast_apply {α : Type} {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (e : Fin M) (o : Fin N) :
    broadcastTo ⟨2, ![M, N]⟩ (shapeCast ⟨2, ![1, N]⟩ b h1) h2 (ix2 e o) = b (ix1 o) :=
  (broadcastTo_1b_ab_apply (shapeCast ⟨2, ![1, N]⟩ b h1) h2 e o).trans (shapeCast_a_1a_apply b h1 0 o)

/-- The product with the transpose of the right operand into the zero accumulator, plus a bias row broadcast over
    the rows: entry (e, o) is the inner product of row e of the left operand with row o of the right one, plus b o. -/
theorem matmulNT_bias_apply {M K N : ℕ} {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (e : Fin M) (o : Fin N) :
    addf (FloatOps.matmul D prec x y (constant ⟨2, ![M, N]⟩ .f32 0x00000000#32))
        (broadcastTo ⟨2, ![M, N]⟩ (shapeCast ⟨2, ![1, N]⟩ b h1) h2) (ix2 e o)
      = (∑ r : Fin K, x (ix2 e r) * y (ix2 o r)) + b (ix1 o) := by
  refine (addf_apply _ _ _).trans ?_
  refine (congrArg (· + _) (Cert.LibRowReduceProducts.matmulNT D hlc hrc hln hrn hlb hrb prec x y e o)).trans ?_
  exact congrArg (_ + ·) (rowBroadcast_apply b h1 h2 e o)

end Cert.LibKernelOps

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.LibVarianceLaw.lean ====
/-
  A general lemma file: the variance law on the extended reals, and the closure facts that let it apply.

  The kernel takes a column's variance as `(∑ h²)/N - ((∑ h)/N)²`; the reference as `(∑ (h - (∑ h)/N)²)/N`. Over the reals
  these are one number: expanding the square, `∑ (h - μ)² = ∑ h² - 2 μ ∑ h + N μ²`, and `∑ h = N μ`. On the extended reals
  the identity FAILS at infinities (`⊤ - ⊤` is junk), so it is stated for columns whose every entry is a real, and the rest
  of this module shows that being a real is kept by the operations that build such a column: sums, products, differences,
  maxima, and a quotient by a real that is at least `1`.
-/
import Idealize.ShloMosaic.PureOps.Ideal

noncomputable section

open scoped BigOperators

namespace Cert.Algebra

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance identity over the reals, with the division by `N` written as the product with `1/N`. -/
theorem var_real {n : ℕ} (N : ℝ) (hN : N ≠ 0) (hcard : (n : ℝ) = N) (h : Fin n → ℝ) :
    (∑ r, (h r - (∑ r, h r) * (1 / N)) * (h r - (∑ r, h r) * (1 / N))) * (1 / N)
      = (∑ r, h r * h r) * (1 / N) - ((∑ r, h r) * (1 / N)) * ((∑ r, h r) * (1 / N)) := by
  have hexp : ∀ μ : ℝ, (∑ r, (h r - μ) * (h r - μ)) = (∑ r, h r * h r) - 2 * μ * (∑ r, h r) + (n : ℝ) * (μ * μ) := by
    intro μ
    have : ∀ r, (h r - μ) * (h r - μ) = h r * h r - 2 * μ * h r + μ * μ := fun r => by ring
    simp only [this, Finset.sum_add_distrib, Finset.sum_sub_distrib, ← Finset.mul_sum, Finset.sum_const,
      Finset.card_univ, Fintype.card_fin, nsmul_eq_mul]
    ring
  rw [hexp, hcard]
  field_simp
  ring

/-- An array of extended reals every entry of which is a real. -/
def IsReal {ι : Type*} (v : ι → EReal) : Prop := ∀ i, ∃ x : ℝ, v i = (x : EReal)

theorem isReal_sum {ι κ : Type*} (s : Finset κ) (v : ι → κ → EReal) (h : ∀ k, IsReal (fun i => v i k)) :
    IsReal (fun i => ∑ k ∈ s, v i k) := by
  intro i
  choose x hx using fun k => h k i
  exact ⟨∑ k ∈ s, x k, by rw [coe_sum]; exact Finset.sum_congr rfl fun k _ => hx k⟩

theorem exists_real_add {a b : EReal} (ha : ∃ x : ℝ, a = x) (hb : ∃ y : ℝ, b = y) : ∃ z : ℝ, a + b = z := by
  obtain ⟨x, rfl⟩ := ha; obtain ⟨y, rfl⟩ := hb; exact ⟨x + y, (EReal.coe_add x y).symm⟩

theorem exists_real_mul {a b : EReal} (ha : ∃ x : ℝ, a = x) (hb : ∃ y : ℝ, b = y) : ∃ z : ℝ, a * b = z := by
  obtain ⟨x, rfl⟩ := ha; obtain ⟨y, rfl⟩ := hb; exact ⟨x * y, (EReal.coe_mul x y).symm⟩

theorem exists_real_sum {κ : Type*} (s : Finset κ) (v : κ → EReal) (h : ∀ k, ∃ x : ℝ, v k = x) : ∃ z : ℝ, ∑ k ∈ s, v k = z := by
  choose x hx using h
  exact ⟨∑ k ∈ s, x k, by rw [coe_sum]; exact Finset.sum_congr rfl fun k _ => hx k⟩

theorem exists_real_max {a b : EReal} (ha : ∃ x : ℝ, a = x) (hb : ∃ y : ℝ, b = y) : ∃ z : ℝ, max a b = z := by
  obtain ⟨x, rfl⟩ := ha; obtain ⟨y, rfl⟩ := hb
  rcases le_total (x : EReal) (y : EReal) with h | h
  · exact ⟨y, max_eq_right h⟩
  · exact ⟨x, max_eq_left h⟩

/-- A real divided by the larger of a real and `1` is a real: the divisor is a nonzero real. -/
theorem exists_real_div_max_one {a d : EReal} (ha : ∃ x : ℝ, a = x) (hd : ∃ y : ℝ, d = y) :
    ∃ z : ℝ, Ideal.div a (max d ((1 : ℝ) : EReal)) = z := by
  obtain ⟨x, rfl⟩ := ha; obtain ⟨y, rfl⟩ := hd
  have hm : max (y : EReal) ((1 : ℝ) : EReal) = ((max y 1 : ℝ) : EReal) := by
    rcases le_total y 1 with h | h
    · rw [max_eq_right (EReal.coe_le_coe_iff.mpr h), max_eq_right h]
    · rw [max_eq_left (EReal.coe_le_coe_iff.mpr h), max_eq_left h]
  have hne : (max y 1 : ℝ) ≠ 0 := ne_of_gt (lt_of_lt_of_le one_pos (le_max_right y 1))
  rw [hm, Ideal.div_coe hne]
  exact ⟨x * (1 / max y 1), (EReal.coe_mul _ _).symm⟩

/-- THE LAW: for a column of reals, the centred second moment over `N` is the raw second moment over `N` minus the square of
    the mean — with each division the ideal quotient by the real `N ≠ 0`. -/
theorem var_ereal {n : ℕ} (N : ℝ) (hN : N ≠ 0) (hcard : (n : ℝ) = N) (h : Fin n → EReal) (hr : ∀ r, ∃ x : ℝ, h r = x) :
    Ideal.div (∑ r, (h r - Ideal.div (∑ r, h r) (N : EReal)) * (h r - Ideal.div (∑ r, h r) (N : EReal))) (N : EReal)
      = Ideal.div (∑ r, h r * h r) (N : EReal) - Ideal.div (∑ r, h r) (N : EReal) * Ideal.div (∑ r, h r) (N : EReal) := by
  choose x hx using hr
  have hh : h = fun r => (x r : EReal) := funext hx
  subst hh
  simp only [Ideal.div_coe hN, ← coe_sum, ← EReal.coe_mul, ← EReal.coe_sub]
  exact congrArg _ (var_real N hN hcard x)

end Cert.Algebra

end
-- ==== Proof.LayerNormRow.lean ====
/-
  Layer normalisation of one row of 128 extended reals, followed by an inner product with a column, in two spellings.

  The two-pass spelling takes the mean `μ = (∑ h) / 128`, then the variance as the centred second moment
  `(∑ (h - μ)²) / 128`. The one-pass spelling takes `μ = (∑ h) · (1/128)` and the variance as
  `max ((∑ h²) · (1/128) - μ², 0)`. The quotient by the real 128 is the product with the real 1/128 on every extended
  real, so the two means are one number for any row. For a row of REALS the raw second moment minus the squared mean is the
  centred second moment (the variance law), and that number is a sum of squares over 128, so it is not negative and the
  clamp at zero does nothing. (At an infinite entry the law fails: `⊤ - ⊤` is junk. Hence the hypothesis.)

  Both spellings then form `(h k - μ) · rsqrt (var + ε) · w k + b k` and sum its products with a column.
-/
import Idealize.ShloMosaic.PureOps.Ideal.Laws
import proofs.«128791_j84078279786859_2_alg».proof.Proof.LibVarianceLaw

noncomputable section

open scoped BigOperators

namespace Cert.LayerNormRow

open Idealize.ShloMosaic

/-- The word 0x43000000 (exponent 134, fraction zero) is the real 128. -/
theorem ofBits_128 : Ideal.ofBits .f32 0x43000000#32 = ((128 : ℝ) : EReal) := by
  simp [Ideal.ofBits, Ideal.ieee, -EReal.coe_mul]; norm_num

/-- The word 0x3C000000 (exponent 120, fraction zero) is the real 1/128. -/
theorem ofBits_inv128 : Ideal.ofBits .f32 0x3C000000#32 = ((1 / 128 : ℝ) : EReal) := by
  simp [Ideal.ofBits, Ideal.ieee, -EReal.coe_mul]; norm_num

theorem ne128 : (128 : ℝ) ≠ 0 := by norm_num

/-- The mean of a row: its sum over 128. -/
def mean (h : Fin 128 → EReal) : EReal := Ideal.div (∑ k, h k) ((128 : ℝ) : EReal)

/-- The variance as the centred second moment over 128. -/
def centredVar (h : Fin 128 → EReal) : EReal :=
  Ideal.div (∑ k, (h k - mean h) * (h k - mean h)) ((128 : ℝ) : EReal)

/-- The variance as the raw second moment times 1/128 minus the squared mean, clamped at zero from below. -/
def rawVar (h : Fin 128 → EReal) : EReal :=
  max ((∑ k, h k * h k) * ((1 / 128 : ℝ) : EReal)
      - ((∑ k, h k) * ((1 / 128 : ℝ) : EReal)) * ((∑ k, h k) * ((1 / 128 : ℝ) : EReal))) 0

/-- The sum times 1/128 is the mean, on every extended real. -/
theorem sum_mul_inv (h : Fin 128 → EReal) : (∑ k, h k) * ((1 / 128 : ℝ) : EReal) = mean h :=
  (Ideal.div_coe ne128 _).symm

/-- The centred second moment of a row of reals is not negative. -/
theorem centredVar_nonneg (h : Fin 128 → EReal) (hr : ∀ k, ∃ x : ℝ, h k = x) : 0 ≤ centredVar h := by
  choose x hx using hr
  obtain rfl : h = fun k => (x k : EReal) := funext hx
  unfold centredVar mean
  simp only [Ideal.div_coe ne128, ← Cert.Algebra.coe_sum, ← EReal.coe_mul, ← EReal.coe_sub]
  exact EReal.coe_nonneg.mpr (mul_nonneg (Finset.sum_nonneg fun k _ => mul_self_nonneg _) (by norm_num))

/-- For a row of reals the one-pass variance is the centred second moment: the variance law, and the clamp idle. -/
theorem rawVar_eq (h : Fin 128 → EReal) (hr : ∀ k, ∃ x : ℝ, h k = x) : rawVar h = centredVar h := by
  have hlaw : (∑ k, h k * h k) * ((1 / 128 : ℝ) : EReal)
      - ((∑ k, h k) * ((1 / 128 : ℝ) : EReal)) * ((∑ k, h k) * ((1 / 128 : ℝ) : EReal)) = centredVar h := by
    have e := Cert.Algebra.var_ereal (n := 128) 128 ne128 (by norm_num) h hr
    simp only [Ideal.div_coe ne128] at e
    unfold centredVar mean
    simp only [Ideal.div_coe ne128]
    exact e.symm
  unfold rawVar
  rw [hlaw]
  exact max_eq_left (centredVar_nonneg h hr)

/-- The two-pass spelling: normalise the row, scale by `w`, shift by `b`, and take the inner product with `col`. -/
def rowOut (ε : EReal) (h w b col : Fin 128 → EReal) : EReal :=
  ∑ k, ((h k - mean h) * Ideal.rsqrt (centredVar h + ε) * w k + b k) * col k

/-- The one-pass spelling of the same. -/
def rowOutOnePass (ε : EReal) (h w b col : Fin 128 → EReal) : EReal :=
  ∑ k, ((h k - (∑ k, h k) * ((1 / 128 : ℝ) : EReal)) * Ideal.rsqrt (rawVar h + ε) * w k + b k) * col k

/-- On a row of reals the two spellings give one number, whatever the scale, the shift and the column hold. -/
theorem rowOutOnePass_eq (ε : EReal) (h w b col : Fin 128 → EReal) (hr : ∀ k, ∃ x : ℝ, h k = x) :
    rowOutOnePass ε h w b col = rowOut ε h w b col := by
  unfold rowOutOnePass rowOut
  rw [rawVar_eq h hr, sum_mul_inv]

end Cert.LayerNormRow

end
-- ==== Proof.LayerNormArrays.lean ====
/-
  The fused layer: every row of a [524288, 128] array normalised (two-pass spelling), scaled and shifted by two
  [128] arrays, then multiplied by a [128, 128] matrix. Entry (r, n) of the result depends on row r of the array, on the
  scale and the shift, and on column n of the matrix.
-/
import Idealize.ShloMosaic.Lib.ValueIdx
import proofs.«128791_j84078279786859_2_alg».proof.Proof.LayerNormRow

noncomputable section

namespace Cert.LayerNormRow

open Idealize.ShloMosaic Idealize.ShloMosaic.ValueIdx

/-- The stabiliser added to the variance: the single-precision word both programs spell (about 1e-5), kept as its word. -/
abbrev eps : EReal := Ideal.ofBits .f32 0x3727C5AC#32

/-- Entry (r, n) of the fused layer. -/
def fusedAt (X : (⟨2, ![524288, 128]⟩ : Shape).Idx → EReal) (w b : (⟨1, ![128]⟩ : Shape).Idx → EReal)
    (B : (⟨2, ![128, 128]⟩ : Shape).Idx → EReal) (r : Fin 524288) (n : Fin 128) : EReal :=
  rowOut eps (fun k => X (ix2 r k)) (fun k => w (ix1 k)) (fun k => b (ix1 k)) (fun k => B (ix2 k n))

/-- The fused layer as one function of the four arrays, index by index. -/
def fused (X : (⟨2, ![524288, 128]⟩ : Shape).Idx → EReal) (w b : (⟨1, ![128]⟩ : Shape).Idx → EReal)
    (B : (⟨2, ![128, 128]⟩ : Shape).Idx → EReal) : (⟨2, ![524288, 128]⟩ : Shape).Idx → EReal :=
  fun i => fusedAt X w b B (i 0) (i 1)

theorem fused_ix2 (X : (⟨2, ![524288, 128]⟩ : Shape).Idx → EReal) (w b : (⟨1, ![128]⟩ : Shape).Idx → EReal)
    (B : (⟨2, ![128, 128]⟩ : Shape).Idx → EReal) (r : Fin 524288) (n : Fin 128) :
    fused X w b B (ix2 r n) = fusedAt X w b B r n := rfl

end Cert.LayerNormRow

end
-- ==== Proof.KernelRows.lean ====
/-
  What the kernel's body stores, read at an entry: entry (p, q) of the block it writes is the one-pass spelling of the
  fused layer on row p of the block it loads, and so — when that row holds reals — the two-pass spelling.

  The body takes the row sums of the loaded block and of its squares, views each as a column, scales by 1/128, forms
  the clamped variance and its reciprocal square root after the stabiliser, broadcasts mean and scale along the rows,
  normalises, multiplies by the scale row and adds the shift row (each a [128] array viewed as one row and broadcast
  over the 8192 rows), and multiplies the result by the [128, 128] matrix into a zero accumulator. A change of float
  format is the identity on the extended reals.
-/
import proofs.«128791_j84078279786859_2_alg».proof.Proof.Gen.KernelIdeal.Skeleton
import proofs.«128791_j84078279786859_2_alg».proof.Proof.LibKernelOps
import proofs.«128791_j84078279786859_2_alg».proof.Proof.LibKeepdimsCols
import proofs.«128791_j84078279786859_2_alg».proof.Proof.LayerNormArrays

noncomputable section

open scoped BigOperators

namespace Cert.KernelIdeal.Rows

open Cert.KernelIdeal Cert.KernelIdeal.Gen Idealize.ShloMosaic Idealize.ShloMosaic.ValueIdx Cert.LayerNormRow

/-- A row sum viewed as a column, at (p, u): the sum of row p. -/
theorem sumCol_apply (v : FVec Ideal S8192x128 .f32) (p : Fin 8192) (u : Fin 1) :
    shapeCast S8192x1 (multiReduction .add [1] S8192 v 0x00000000#32 reduces_S8192x128_S8192 (.inl rfl) rfl)
        shapeCasts_S8192_S8192x1 (ix2 p u)
      = ∑ k : Fin 128, v (ix2 p k) :=
  (Cert.LibKeepdimsCols.shapeCast_a_a1_apply _ _ p u).trans (Cert.LibRowReduceProducts.rowSum_apply v _ _ _ p)

/-- The mean column, at (p, u): the sum of row p times 1/128. -/
theorem meanCol_apply (v : FVec Ideal S8192x128 .f32) (p : Fin 8192) (u : Fin 1) :
    mulf (shapeCast S8192x1 (multiReduction .add [1] S8192 v 0x00000000#32 reduces_S8192x128_S8192 (.inl rfl) rfl)
        shapeCasts_S8192_S8192x1) (broadcast S8192x1 (Scalar.ofBits (F := Ideal) .f32 0x3C000000#32)) (ix2 p u)
      = (∑ k : Fin 128, v (ix2 p k)) * ((1 / 128 : ℝ) : EReal) :=
  congrArg₂ (fun a b : EReal => a * b) (sumCol_apply v p u) ofBits_inv128

/-- The clamped one-pass variance column, at (p, u). -/
theorem varCol_apply (v : FVec Ideal S8192x128 .f32) (p : Fin 8192) (u : Fin 1) :
    maximumf (subf
        (mulf (shapeCast S8192x1 (multiReduction .add [1] S8192 (mulf v v) 0x00000000#32 reduces_S8192x128_S8192 (.inl rfl) rfl)
          shapeCasts_S8192_S8192x1) (broadcast S8192x1 (Scalar.ofBits (F := Ideal) .f32 0x3C000000#32)))
        (mulf
          (mulf (shapeCast S8192x1 (multiReduction .add [1] S8192 v 0x00000000#32 reduces_S8192x128_S8192 (.inl rfl) rfl)
            shapeCasts_S8192_S8192x1) (broadcast S8192x1 (Scalar.ofBits (F := Ideal) .f32 0x3C000000#32)))
          (mulf (shapeCast S8192x1 (multiReduction .add [1] S8192 v 0x00000000#32 reduces_S8192x128_S8192 (.inl rfl) rfl)
            shapeCasts_S8192_S8192x1) (broadcast S8192x1 (Scalar.ofBits (F := Ideal) .f32 0x3C000000#32)))))
      (broadcast S8192x1 (Scalar.ofBits (F := Ideal) .f32 0x00000000#32)) (ix2 p u)
      = rawVar (fun k => v (ix2 p k)) :=
  congrArg₂ (fun a b : EReal => max a b)
    (congrArg₂ (fun a b : EReal => a - b) (meanCol_apply (mulf v v) p u)
      (congrArg₂ (fun a b : EReal => a * b) (meanCol_apply v p u) (meanCol_apply v p u)))
    Ideal.ofBits_zero_f32

/-- ENTRY (p, q) OF THE STORED BLOCK: the one-pass spelling on row p of the loaded block. -/
theorem pay_apply (x0 : Vec Ideal S8192x128 .f32) (x1 x2 : Vec Ideal S128 .f32) (x3 : Vec Ideal S128x128 .bf16)
    (p : Fin 8192) (q : Fin 128) :
    k0_pay1 (F := Ideal) x0 x1 x2 x3 (ix2 p q)
      = rowOutOnePass eps (fun k => x0 (ix2 p k)) (fun k => x1 (ix1 k)) (fun k => x2 (ix1 k)) (fun k => x3 (ix2 k q)) := by
  unfold k0_pay1
  refine (Cert.LibRowReduceProducts.matmulNN _ rfl rfl rfl rfl rfl rfl none _ _ p q).trans ?_
  unfold rowOutOnePass
  refine Finset.sum_congr rfl fun k _ => ?_
  refine congrArg₂ (fun a b : EReal => a * b) ?_ (congrFun (shapeCast_self x3 _) (ix2 k q))
  refine congrArg₂ (fun a b : EReal => a + b) (congrArg₂ (fun a b : EReal => a * b)
    (congrArg₂ (fun a b : EReal => a * b) (congrArg₂ (fun a b : EReal => a - b) rfl ?_) ?_) ?_) ?_
  · exact (Cert.LibKeepdimsCols.broadcastTo_a1_ab_apply _ _ p k).trans (meanCol_apply x0 p 0)
  · refine (Cert.LibKeepdimsCols.broadcastTo_a1_ab_apply _ _ p k).trans ?_
    exact congrArg Ideal.rsqrt (congrArg₂ (fun a b : EReal => a + b) (varCol_apply x0 p 0) rfl)
  · exact Cert.LibKernelOps.rowBroadcast_apply x1 _ _ p k
  · exact Cert.LibKernelOps.rowBroadcast_apply x2 _ _ p k

end Cert.KernelIdeal.Rows

end
-- ==== Proof.KernelBlocks.lean ====
/-
  From blocks to the array: the kernel's result array is the fused layer of the argument arrays.

  Grid point t loads rows 8192·t … 8192·t + 8191 of the first argument, the whole scale and shift arrays and the whole
  matrix (which the host has only changed in format, the identity on the extended reals), and writes the same rows of
  the result. Entry (p, q) of what it writes depends on row p of the loaded block alone, so — every entry of the first
  argument being a real — it is entry (8192·t + p, q) of the fused layer. The 64 blocks cover the result's rows.
-/
import proofs.«128791_j84078279786859_2_alg».proof.Proof.Gen.KernelIdeal.Value
import proofs.«128791_j84078279786859_2_alg».proof.Proof.KernelRows
import Idealize.ShloMosaic.Lib.Pipeline.Value
import Idealize.ShloMosaic.Lib.StableHlo.Run

set_option maxRecDepth 16384

noncomputable section

open scoped BigOperators

namespace Cert.KernelIdeal.Blocks

open Cert.KernelIdeal Cert.KernelIdeal.Gen Cert.KernelIdeal.Value Idealize.ShloMosaic Idealize.ShloMosaic.TcCoe
open Idealize.SL.Sem Idealize.ShloMosaic.ValueIdx Cert.LayerNormRow Cert.KernelIdeal.Rows
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 grid points: the first argument's and the result's windows sit at block
    row t, the other three windows at their one block. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t is row 8192·t + p of the array. -/
def row (t : Fin cfg0.N) (p : Fin 8192) : Fin 524288 :=
  ⟨t.val * 8192 + p.val, by have h1 := t.isLt; have h2 : cfg0.N = 64 := N_0; have h3 := p.isLt; omega⟩

/-- The matrix as the region finds it: the host's change of format is the identity on the extended reals. -/
theorem V_matrix (c : Dev nD) :
    (V m c main_v0 : S128x128.Idx → EReal) = (m ((c : Thread nD τ).loc main_arg3) : S128x128.Idx → EReal) := by
  dsimp only [Gen.V, Gen.hostOps0]; after_results; rfl

/-- The first argument's block at point t, at (p, k). -/
theorem xblk_apply (c : Dev nD) (t : Fin cfg0.N) (p : Fin 8192) (k : Fin 128) :
    (iblk m c 0 t : Vec Ideal S8192x128 .f32) (ix2 p k)
      = (m ((c : Thread nD τ).loc main_arg0) : S524288x128.Idx → EReal) (ix2 (row t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * p.val = t.val * 8192 + p.val; rw [e0]; omega
  | ⟨1, _⟩ => show win0_0.index t (1 : Fin 2) * 128 + 1 * k.val = k.val; rw [e1]; omega

/-- The scale array's block is the array. -/
theorem wblk_apply (c : Dev nD) (t : Fin cfg0.N) (k : Fin 128) :
    (iblk m c 1 t : Vec Ideal S128 .f32) (ix1 k) = (m ((c : Thread nD τ).loc main_arg1) : S128.Idx → EReal) (ix1 k) := by
  obtain ⟨-, -, e, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 1) * 128 + 1 * k.val = k.val; rw [e]; omega

/-- The shift array's block is the array. -/
theorem bblk_apply (c : Dev nD) (t : Fin cfg0.N) (k : Fin 128) :
    (iblk m c 2 t : Vec Ideal S128 .f32) (ix1 k) = (m ((c : Thread nD τ).loc main_arg2) : S128.Idx → EReal) (ix1 k) := by
  obtain ⟨-, -, -, e, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 1) * 128 + 1 * k.val = k.val; rw [e]; omega

/-- The matrix's block is the matrix argument. -/
theorem mblk_apply (c : Dev nD) (t : Fin cfg0.N) (k q : Fin 128) :
    (iblk m c 3 t : Vec Ideal S128x128 .bf16) (ix2 k q)
      = (m ((c : Thread nD τ).loc main_arg3) : S128x128.Idx → EReal) (ix2 k q) := by
  obtain ⟨-, -, -, -, e0, e1, -⟩ := idx_facts t
  unfold iblk
  rw [View.read_apply]
  show (V m c main_v0 : S128x128.Idx → EReal) _ = _
  rw [V_matrix]
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Entry (p, q) of the result's block at point t is entry (8192·t + p, q) of the array. -/
theorem oblk_emb (t : Fin cfg0.N) (p : Fin 8192) (q : Fin 128) :
    ((cfg0.win 4).blk t).view.emb (ix2 p q) = ix2 (row t p) q := by
  obtain ⟨-, -, -, -, -, -, e0, e1⟩ := idx_facts t
  funext a; apply Fin.ext
  match a with
  | ⟨0, _⟩ => show win0_4.index t (0 : Fin 2) * 8192 + 1 * p.val = t.val * 8192 + p.val; rw [e0]; omega
  | ⟨1, _⟩ => show win0_4.index t (1 : Fin 2) * 128 + 1 * q.val = q.val; rw [e1]; omega

/-- Every entry of the first argument is a real, on every device. -/
def RealInput : Prop :=
  ∀ (c : Dev nD) (i : S524288x128.Idx),
    ∃ x : ℝ, (m ((c : Thread nD τ).loc main_arg0) : S524288x128.Idx → EReal) i = (x : EReal)

/-- WHAT POINT t WRITES BACK is block t of the fused layer of the argument arrays, when the first argument holds reals. -/
theorem flushed_eq
    (hfin : RealInput m)
    (c : Dev nD) (t : Fin cfg0.N) :
    (dats m 0 c).flushed 4 t = ((cfg0.win 4).blk t).view.read (Elt Ideal)
      (fused (m ((c : Thread nD τ).loc main_arg0)) (m ((c : Thread nD τ).loc main_arg1))
        (m ((c : Thread nD τ).loc main_arg2)) (m ((c : Thread nD τ).loc main_arg3))) := by
  rw [flushed4]
  unfold out0_4
  rw [View.canon_unit_zero hz2]
  simp only [View.ld_unit_zero (S := S8192x128) hz2, View.ld_unit_zero (S := S128) hz1, View.ld_unit_zero (S := S128x128) hz2]
  funext j
  obtain ⟨p, q, rfl⟩ : ∃ (p : Fin 8192) (q : Fin 128), j = ix2 p q := ⟨j 0, j 1, eq_ix2 j⟩
  rw [View.read_apply, oblk_emb, fused_ix2]
  show k0_pay1 (iblk m c 0 t) (iblk m c 1 t) (iblk m c 2 t) (iblk m c 3 t) (ix2 p q) = _
  refine (pay_apply (iblk m c 0 t) (iblk m c 1 t) (iblk m c 2 t) (iblk m c 3 t) p q).trans ?_
  have h0 : (fun k => (iblk m c 0 t : Vec Ideal S8192x128 .f32) (ix2 p k))
      = fun k => (m ((c : Thread nD τ).loc main_arg0) : S524288x128.Idx → EReal) (ix2 (row t p) k) :=
    funext fun k => xblk_apply m c t p k
  have h1 : (fun k => (iblk m c 1 t : Vec Ideal S128 .f32) (ix1 k))
      = fun k => (m ((c : Thread nD τ).loc main_arg1) : S128.Idx → EReal) (ix1 k) :=
    funext fun k => wblk_apply m c t k
  have h2 : (fun k => (iblk m c 2 t : Vec Ideal S128 .f32) (ix1 k))
      = fun k => (m ((c : Thread nD τ).loc main_arg2) : S128.Idx → EReal) (ix1 k) :=
    funext fun k => bblk_apply m c t k
  have h3 : (fun k => (iblk m c 3 t : Vec Ideal S128x128 .bf16) (ix2 k q))
      = fun k => (m ((c : Thread nD τ).loc main_arg3) : S128x128.Idx → EReal) (ix2 k q) :=
    funext fun k => mblk_apply m c t k q
  rw [h0, h1, h2, h3]
  exact rowOutOnePass_eq eps _ _ _ _ (fun k => hfin c _)

/-- An index of the array is in point t's block iff each coordinate is in the block's range on its axis. -/
theorem mem_blk (t : Fin cfg0.N) (i : S524288x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v1).slice (win0_4.rect t)).set ↔ _
  rw [View.set_slice_whole, Rect.mem_set_unit]
  exact Iff.rfl

/-- Every index of the result is in some point's block: row r is written at point r / 8192. -/
theorem cover (i : S524288x128.Idx) :
    ∃ t : Fin cfg0.N, (cfg0.win 4).flush t = true ∧ i ∈ ((cfg0.win 4).blk t).view.set := by
  have hi0 : (i 0).val < 524288 := (i 0).isLt
  have hi1 : (i 1).val < 128 := (i 1).isLt
  have hN : cfg0.N = 64 := N_0
  obtain ⟨t, ht⟩ : ∃ t : Fin cfg0.N, t.val = (i 0).val / 8192 := ⟨⟨(i 0).val / 8192, by omega⟩, rfl⟩
  obtain ⟨-, -, -, -, -, -, e0, e1⟩ := idx_facts t
  refine ⟨t, flush0_4 t, ?_⟩
  rw [mem_blk]
  intro a
  match a with
  | ⟨0, _⟩ =>
    show win0_4.index t (0 : Fin 2) * 8192 ≤ (i 0).val ∧ (i 0).val < win0_4.index t (0 : Fin 2) * 8192 + 8192
    rw [e0]; omega
  | ⟨1, _⟩ =>
    show win0_4.index t (1 : Fin 2) * 128 ≤ (i 1).val ∧ (i 1).val < win0_4.index t (1 : Fin 2) * 128 + 128
    rw [e1]; omega

/-- THE RESULT ARRAY after the run is the fused layer of the argument arrays. -/
theorem final
    (hfin : RealInput m)
    (c : Dev nD) :
    (dats m 0 c).arrAt 4 cfg0.N = fused (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m hfin c t) cover

/-- The kernel's run, read: the result array at the fused layer of the arguments, the arguments unchanged. -/
theorem run
    (hfin : RealInput m) :
    θ_run defs (onTc (τ := τ) (main (F := Ideal))) ⟨m, fun _ => 0, ρ⟩ fun r => ∀ c : Dev nD,
      r.2.mem ((c : Thread nD τ).loc main_v1) = fused (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hfin c), (h c).2⟩) (run_blocks m ρ)

end Cert.KernelIdeal.Blocks

end
-- ==== Proof.ReferenceRows.lean ====
/-
  The reference program's result is the fused layer of its four arguments, index by index.

  Its stages are read one at a time: the row sum over 128 is the row's mean; the row sum of the squared deviations over
  128 is the centred second moment; its reciprocal square root after the stabiliser is the row's scale; entry (r, k)
  of the normalised, scaled and shifted array; and the final product with the matrix as a sum over k.
-/
import proofs.«128791_j84078279786859_2_alg».proof.Proof.Gen.ReferenceIdeal.Read
import proofs.«128791_j84078279786859_2_alg».proof.Proof.LayerNormArrays

noncomputable section

open scoped BigOperators

namespace Cert.ReferenceIdeal.Rows

open Cert.ReferenceIdeal Cert.ReferenceIdeal.Read Idealize.ShloMosaic Idealize.ShloMosaic.ValueIdx Cert.LayerNormRow

variable (x0 : (⟨S524288x128, .f32⟩ : BufTy).Contents (Elt Ideal))
variable (x1 x2 : (⟨S128, .f32⟩ : BufTy).Contents (Elt Ideal))
variable (x3 : (⟨S128x128, .f32⟩ : BufTy).Contents (Elt Ideal))

/-! ## The stages' index maps at coordinates -/

theorem sum_idx (r : Fin 524288) (u : Fin 1) (k : Fin 128) : idx_main_v0 (idx_main_v1 (ix2 r u)) k = ix2 r k :=
  funext fun a => by match a with | ⟨0, _⟩ => rfl | ⟨1, _⟩ => rfl

theorem sqsum_idx (r : Fin 524288) (u : Fin 1) (k : Fin 128) : idx_main_v7 (idx_main_v8 (ix2 r u)) k = ix2 r k :=
  funext fun a => by match a with | ⟨0, _⟩ => rfl | ⟨1, _⟩ => rfl

theorem col_idx4 (r : Fin 524288) (k : Fin 128) : idx_main_v4 (ix2 r k) = ix2 r (0 : Fin 1) :=
  funext fun a => by match a with | ⟨0, _⟩ => rfl | ⟨1, _⟩ => rfl

theorem col_idx11 (r : Fin 524288) (k : Fin 128) : idx_main_v11 (ix2 r k) = ix2 r (0 : Fin 1) :=
  funext fun a => by match a with | ⟨0, _⟩ => rfl | ⟨1, _⟩ => rfl

theorem col_idx16 (r : Fin 524288) (k : Fin 128) : idx_main_v16 (ix2 r k) = ix2 r (0 : Fin 1) :=
  funext fun a => by match a with | ⟨0, _⟩ => rfl | ⟨1, _⟩ => rfl

theorem scale_idx (r : Fin 524288) (k : Fin 128) : idx_main_v18 (idx_main_v19 (ix2 r k)) = ix1 k :=
  funext fun a => by match a with | ⟨0, _⟩ => rfl

theorem shift_idx (r : Fin 524288) (k : Fin 128) : idx_main_v21 (idx_main_v22 (ix2 r k)) = ix1 k :=
  funext fun a => by match a with | ⟨0, _⟩ => rfl

theorem lhs_idx (r : Fin 524288) (n k : Fin 128) : lidx_main_v24 (ix2 r n) k = ix2 r k :=
  funext fun a => by match a with | ⟨0, _⟩ => rfl | ⟨1, _⟩ => rfl

theorem rhs_idx (r : Fin 524288) (n k : Fin 128) : ridx_main_v24 (ix2 r n) k = ix2 k n :=
  funext fun a => by match a with | ⟨0, _⟩ => rfl | ⟨1, _⟩ => rfl

/-! ## The stages at coordinates -/

/-- The row sum divided by 128 is the row's mean. -/
theorem mean_apply (r : Fin 524288) (u : Fin 1) :
    val_main_v3 (F := Ideal) x0 (ix2 r u) = mean (fun k => x0 (ix2 r k)) := by
  rw [val_main_v3_apply, val_main_v1_apply, val_main_v0_apply, val_main_v2_apply, val_main_cst_0_apply, val_main_cst_apply]
  simp only [sum_idx, Ideal.hostDivf_def, Ideal.ofBits_def, Ideal.ofBits_zero_f32, zero_add, ofBits_128]
  rfl

/-- The row sum of the squared deviations divided by 128 is the centred second moment. -/
theorem var_apply (r : Fin 524288) (u : Fin 1) :
    val_main_v10 (F := Ideal) x0 (ix2 r u) = centredVar (fun k => x0 (ix2 r k)) := by
  rw [val_main_v10_apply, val_main_v8_apply, val_main_v7_apply, val_main_v9_apply, val_main_cst_2_apply, val_main_cst_1_apply]
  simp only [sqsum_idx, val_main_v6_apply, val_main_v5_apply, val_main_v4_apply, col_idx4, mean_apply,
    Ideal.hostDivf_def, Ideal.ofBits_def, Ideal.ofBits_zero_f32, zero_add, ofBits_128, Ideal.mulf_def, Ideal.subf_def]
  rfl

/-- The row's scale: the reciprocal square root of the variance plus the stabiliser. -/
theorem inv_apply (r : Fin 524288) (u : Fin 1) :
    val_main_v15 (F := Ideal) x0 (ix2 r u) = Ideal.rsqrt (centredVar (fun k => x0 (ix2 r k)) + eps) := by
  rw [val_main_v15_apply, val_main_v14_apply, var_apply, val_main_v13_apply, val_main_cst_3_apply]
  simp only [Ideal.hostUnary_rsqrt_def, Ideal.addf_def, Ideal.ofBits_def]

/-- Entry (r, k) of the normalised, scaled and shifted array. -/
theorem affine_apply (r : Fin 524288) (k : Fin 128) :
    val_main_v23 (F := Ideal) x0 x1 x2 (ix2 r k)
      = (x0 (ix2 r k) - mean (fun k => x0 (ix2 r k))) * Ideal.rsqrt (centredVar (fun k => x0 (ix2 r k)) + eps) * x1 (ix1 k)
        + x2 (ix1 k) := by
  rw [val_main_v23_apply, val_main_v20_apply, val_main_v17_apply, val_main_v12_apply, val_main_v11_apply,
    val_main_v16_apply, val_main_v19_apply, val_main_v18_apply, val_main_v22_apply, val_main_v21_apply]
  simp only [col_idx11, col_idx16, scale_idx, shift_idx, mean_apply, inv_apply, Ideal.addf_def, Ideal.mulf_def, Ideal.subf_def]

/-- THE REFERENCE'S RESULT is the fused layer of its arguments. -/
theorem result_eq : val_main_v24 (F := Ideal) x0 x1 x2 x3 = fused x0 x1 x2 x3 := by
  funext i
  obtain ⟨r, n, rfl⟩ : ∃ (r : Fin 524288) (n : Fin 128), i = ix2 r n := ⟨i 0, i 1, eq_ix2 i⟩
  rw [val_main_v24_apply, fused_ix2]
  unfold fusedAt rowOut
  refine Finset.sum_congr rfl fun k _ => ?_
  rw [lhs_idx, rhs_idx, affine_apply]

end Cert.ReferenceIdeal.Rows

end
-- ==== Proof.FiniteInputs.lean ====
/-
  From the precondition to "every entry of the first argument is a real".

  The precondition is the conjunction of four tests `all (|a| < +inf)`, one per argument. A conjunction of one-bit
  words is 1 only if each is; a reduction by `and` into a single word is 1 only if every reduced word is; and
  `max x (-x) < ⊤` fails at both infinities, so an extended real that passes is a real.
-/
import proofs.«128791_j84078279786859_2_alg».proof.Pre_finite_inputs
import Idealize.ShloMosaic.Lib.ReduceAll
import Idealize.ShloMosaic.Lib.ValueIdx
import Idealize.ShloMosaic.PureOps.Ideal

noncomputable section

namespace Cert.Pre_finite_inputs.Reals

open Cert.Pre_finite_inputs Idealize.ShloMosaic

instance : Subsingleton S_.Idx := ⟨fun a b => funext fun d => d.elim0⟩

/-- The word 0x7F800000 (exponent all ones, fraction zero, sign clear) is plus infinity. -/
theorem ofBits_inf : Ideal.ofBits .f32 0x7F800000#32 = (⊤ : EReal) := by
  simp [Ideal.ofBits, Ideal.ieee]

/-- An extended real whose absolute value is below plus infinity is a real. -/
theorem real_of_abs_lt_top (x : EReal) (h : max x (-x) < ⊤) : ∃ r : ℝ, x = (r : EReal) := by
  induction x using EReal.rec with
  | bot => simp at h
  | top => simp at h
  | coe r => exact ⟨r, rfl⟩

/-- The "ordered less than" comparison delivers the word 1 only when the strict inequality holds. -/
theorem lt_of_cmp_olt (x y : EReal) (h : Ideal.cmp .olt x y = 1#1) : x < y := by
  by_contra hn
  have h0 : Ideal.cmp .olt x y = 0#1 := by
    unfold Ideal.cmp
    simp only [hn, decide_false, BitVec.ofBool_false]
    rfl
  rw [h0] at h
  exact absurd h (by decide)

variable [Facts]

/-- Under the precondition every entry of the first argument is a real. -/
theorem real_arg0 (a0 : FVec Ideal S524288x128 .f32) (a1 a2 : FVec Ideal S128 .f32) (a3 : FVec Ideal S128x128 .f32)
    (h : fn (F := Ideal) a0 a1 a2 a3 = fun _ => 1#1) (i : S524288x128.Idx) : ∃ r : ℝ, a0 i = (r : EReal) := by
  have h0 := congrFun h ValueIdx.ix0
  dsimp only [fn, fn_part1] at h0
  have h1 := (IntOp.andi_eq_one.mp h0).1
  have h2 := (IntOp.andi_eq_one.mp h1).1
  have h3 := (IntOp.andi_eq_one.mp h2).1
  have h4 := Host.reduce_andi_all _ _ _ _ _ h3 i
  refine real_of_abs_lt_top (a0 i) ?_
  have h5 : Ideal.cmp .olt (max (a0 i) (-(a0 i))) (Ideal.ofBits .f32 0x7F800000#32) = 1#1 := h4
  rw [ofBits_inf] at h5
  exact lt_of_cmp_olt _ _ h5

end Cert.Pre_finite_inputs.Reals

end
-- ==== Proof.lean ====
/-
  A fused layer normalisation and linear map, tiled over row blocks, against the plain two-pass formula.

  Both programs take a [524288, 128] array x, a scale and a shift of length 128, and a [128, 128] matrix B, and return
  y · B, where row r of y is (x_r - μ_r) · rsqrt (var_r + ε) · scale + shift.

  * The reference takes μ_r = (∑ x_r) / 128 and var_r = (∑ (x_r - μ_r)²) / 128.
  * The kernel works on 64 blocks of 8192 rows; in a block it takes μ_r = (∑ x_r) · (1/128) and
    var_r = max ((∑ x_r²) · (1/128) - μ_r², 0), and multiplies by B after changes of float format that are the identity
    on the extended reals.

  On the extended reals the quotient by 128 is the product with 1/128; for a row of reals the raw second moment minus the
  squared mean is the centred second moment, which is not negative, so the clamp is idle. The precondition makes every
  entry of x a real. Hence entry (8192·t + p, q) of the kernel's result, written at grid point t, is entry
  (8192·t + p, q) of the reference's result; the 64 blocks cover all rows.

  The frames of the two kernel programs are the generated ones; the reference's frame is its generated run with the
  result dropped. No operation of the kernel was rewritten for the ideal reading, so that conjunct is trivial.
-/
import proofs.«128791_j84078279786859_2_alg».proof.Defs
import proofs.«128791_j84078279786859_2_alg».proof.Proof.Gen.Kernel
import proofs.«128791_j84078279786859_2_alg».proof.Proof.Gen.Kernel.Skeleton
import proofs.«128791_j84078279786859_2_alg».proof.Proof.Gen.Kernel.Launch
import proofs.«128791_j84078279786859_2_alg».proof.Proof.Gen.Kernel.Points
import proofs.«128791_j84078279786859_2_alg».proof.Proof.Gen.Kernel.Frame
import proofs.«128791_j84078279786859_2_alg».proof.Proof.Gen.KernelIdeal
import proofs.«128791_j84078279786859_2_alg».proof.Proof.Gen.KernelIdeal.Skeleton
import proofs.«128791_j84078279786859_2_alg».proof.Proof.Gen.KernelIdeal.Launch
import proofs.«128791_j84078279786859_2_alg».proof.Proof.Gen.KernelIdeal.Points
import proofs.«128791_j84078279786859_2_alg».proof.Proof.Gen.KernelIdeal.Frame
import proofs.«128791_j84078279786859_2_alg».proof.Proof.Gen.ReferenceIdeal
import proofs.«128791_j84078279786859_2_alg».proof.Proof.Gen.Pre_finite_inputs
import proofs.«128791_j84078279786859_2_alg».proof.Proof.Gen.KernelIdeal.Value
import proofs.«128791_j84078279786859_2_alg».proof.Proof.Gen.ReferenceIdeal.Run
import proofs.«128791_j84078279786859_2_alg».proof.Proof.Gen.ReferenceIdeal.Read
import proofs.«128791_j84078279786859_2_alg».proof.Proof.KernelBlocks
import proofs.«128791_j84078279786859_2_alg».proof.Proof.ReferenceRows
import proofs.«128791_j84078279786859_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the fused layer of the argument arrays: the kernel because every entry of the
    first argument is a real (the precondition), the reference for any arguments. -/
theorem algebraic : Cert.algebraic_KernelIdeal_ReferenceIdeal := by
  intro m ρ m' ρ' hpre hagree
  have hfin : Cert.KernelIdeal.Blocks.RealInput m := fun c i =>
    Cert.Pre_finite_inputs.Reals.real_arg0 _ _ _ _ (hpre c) i
  refine ⟨_, Cert.KernelIdeal.Blocks.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Rows.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
